-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x45 : Shape := ⟨2, ![2048, 45]⟩
abbrev S45x2048 : Shape := ⟨2, ![45, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x45 : S_.BroadcastsInDim S2048x45 (![] : Fin 0 → Fin S2048x45.rank)
  reducesTo_S2048x45_S_d0_1 : S2048x45.ReducesTo [0, 1] S_
  bcast_S_S45x2048 : S_.BroadcastsInDim S45x2048 (![] : Fin 0 → Fin S45x2048.rank)
  reducesTo_S45x2048_S_d0_1 : S45x2048.ReducesTo [0, 1] S_

variable [Facts]

def fn {F : FTy → Type} [FloatOps F] (main_arg0 : FVec F S16384x2048 .f32) (main_arg1 : FVec F S2048x45 .f32) (main_arg2 : FVec F S45x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x45 .f32 := Host.absf main_arg1
  let main_cst_0 : FVec F S_ .f32 := constant S_ .f32 0x7F800000#32
  let main_v5 : FVec F S2048x45 .f32 := broadcastInDim S2048x45 ![] bcast_S_S2048x45 main_cst_0
  let main_v6 : IVec S2048x45 1 := cmpf .olt main_v4 main_v5
  let main_c_1 : IVec S_ 1 := constantI S_ 1 1#1
  let main_v7 : IVec S_ 1 := (fun x v => Host.reduce IntOp.andi x v reducesTo_S2048x45_S_d0_1 h_S_) main_v6 main_c_1
  let main_v8 : IVec S_ 1 := andi main_v3 main_v7
  let main_v9 : FVec F S45x2048 .f32 := Host.absf main_arg2
  let main_cst_2 : FVec F S_ .f32 := constant S_ .f32 0x7F800000#32
  let main_v10 : FVec F S45x2048 .f32 := broadcastInDim S45x2048 ![] bcast_S_S45x2048 main_cst_2
  let main_v11 : IVec S45x2048 1 := cmpf .olt main_v9 main_v10
  let main_c_3 : IVec S_ 1 := constantI S_ 1 1#1
  let main_v12 : IVec S_ 1 := (fun x v => Host.reduce IntOp.andi x v reducesTo_S45x2048_S_d0_1 h_S_) main_v11 main_c_3
  let main_v13 : IVec S_ 1 := andi main_v8 main_v12
  main_v13
-- ==== Kernel.lean ====
abbrev S16384x2048 : Shape := ⟨2, ![16384, 2048]⟩
abbrev S2048x45 : Shape := ⟨2, ![2048, 45]⟩
abbrev S45x2048 : Shape := ⟨2, ![45, 2048]⟩
abbrev S2048x2048 : Shape := ⟨2, ![2048, 2048]⟩
abbrev S45x1024 : Shape := ⟨2, ![45, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x45, .f32⟩
  | .hbm, ⟨2, _⟩ => ⟨S45x2048, .f32⟩
  | .hbm, ⟨3, _⟩ => ⟨S16384x2048, .f32⟩
  | .local _ .vmem, ⟨0, _⟩ => ⟨S2048x2048, .f32⟩
  | .local _ .vmem, ⟨1, _⟩ => ⟨S2048x2048, .f32⟩
  | .local _ .vmem, ⟨2, _⟩ => ⟨S2048x45, .f32⟩
  | .local _ .vmem, ⟨3, _⟩ => ⟨S45x1024, .f32⟩
  | .local _ .vmem, ⟨4, _⟩ => ⟨S45x1024, .f32⟩
  | .local _ .vmem, ⟨5, _⟩ => ⟨S2048x1024, .f32⟩
  | .local _ .vmem, ⟨6, _⟩ => ⟨S2048x1024, .f32⟩
  | .local _ .vmem, ⟨7, _⟩ => ⟨S2048x45, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x45 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S45x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S2048x2048_S2048x2048_0_0 : ∀ a, (![0, 0] : Fin 2 → Nat) a + S2048x2048.size a ≤ S2048x2048.size a
  h_S2048x2048 : 0 < S2048x2048.numel
  inb_S2048x45_S2048x45_0_0 : ∀ a, (![0, 0] : Fin 2 → Nat) a + S2048x45.size a ≤ S2048x45.size a
  h_S2048x45 : 0 < S2048x45.numel
  shapeCasts_S2048x45_S2048x45 : S2048x45.ShapeCasts S2048x45
  inb_S45x1024_S45x1024_0_0 : ∀ a, (![0, 0] : Fin 2 → Nat) a + S45x1024.size a ≤ S45x1024.size a
  h_S45x1024 : 0 < S45x1024.numel
  inb_S2048x1024_S2048x1024_0_0 : ∀ a, (![0, 0] : Fin 2 → Nat) a + S2048x1024.size a ≤ S2048x1024.size a
  h_S2048x1024 : 0 < S2048x1024.numel
  dot_S2048x2048_S2048x45_S2048x45_1_0_0_1_n_n_wf : DotDims.WF S2048x2048 S2048x45 S2048x45 [1] [0] [0] [1] [] []
  dot_S2048x45_S45x1024_S2048x1024_1_0_0_1_n_n_wf : DotDims.WF S2048x45 S45x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x45.size a ≤ S2048x45.size a
  hwx0_1 : ∀ i : grid0.Coords, EltTy.bits .f32 = 32 ∨ (Rect.block (s := S2048x45) S2048x45.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S45x1024.size a ≤ S45x2048.size a
  hwx0_2 : ∀ i : grid0.Coords, EltTy.bits .f32 = 32 ∨ (Rect.block (s := S45x2048) S45x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x2048.size a
  hwx0_3 : ∀ i : grid0.Coords, EltTy.bits .f32 = 32 ∨ (Rect.block (s := S16384x2048) S2048x1024.size (cc0_transform_3 i) (hinb0_3 i)).WholeWords (EltTy.packing .f32)

variable [Facts₀]

def dot_S2048x2048_S2048x45_S2048x45_1_0_0_1_n_n : DotDims S2048x2048 S2048x45 S2048x45 where
  lhsContracting := [1]
  rhsContracting := [0]
  lhsNonContracting := [0]
  rhsNonContracting := [1]
  lhsBatch := []
  rhsBatch := []
  wf := dot_S2048x2048_S2048x45_S2048x45_1_0_0_1_n_n_wf
def dot_S2048x45_S45x1024_S2048x1024_1_0_0_1_n_n : DotDims S2048x45 S45x1024 S2048x1024 where
  lhsContracting := [1]
  rhsContracting := [0]
  lhsNonContracting := [0]
  rhsNonContracting := [1]
  lhsBatch := []
  rhsBatch := []
  wf := dot_S2048x45_S45x1024_S2048x1024_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x45.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S45x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x45 : Shape := ⟨2, ![2048, 45]⟩
abbrev S45x2048 : Shape := ⟨2, ![45, 2048]⟩
abbrev S16384x45 : Shape := ⟨2, ![16384, 45]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x45, .f32⟩
  | .hbm, ⟨2, _⟩ => ⟨S45x2048, .f32⟩
  | .hbm, ⟨3, _⟩ => ⟨S16384x45, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x2048_S2048x45_S16384x45_1_0_0_1_n_n_wf : DotDims.WF S16384x2048 S2048x45 S16384x45 [1] [0] [0] [1] [] []
  dot_S16384x45_S45x2048_S16384x2048_1_0_0_1_n_n_wf : DotDims.WF S16384x45 S45x2048 S16384x2048 [1] [0] [0] [1] [] []

variable [Facts₀]

def dot_S16384x2048_S2048x45_S16384x45_1_0_0_1_n_n : DotDims S16384x2048 S2048x45 S16384x45 where
  lhsContracting := [1]
  rhsContracting := [0]
  lhsNonContracting := [0]
  rhsNonContracting := [1]
  lhsBatch := []
  rhsBatch := []
  wf := dot_S16384x2048_S2048x45_S16384x45_1_0_0_1_n_n_wf
def dot_S16384x45_S45x2048_S16384x2048_1_0_0_1_n_n : DotDims S16384x45 S45x2048 S16384x2048 where
  lhsContracting := [1]
  rhsContracting := [0]
  lhsNonContracting := [0]
  rhsNonContracting := [1]
  lhsBatch := []
  rhsBatch := []
  wf := dot_S16384x45_S45x2048_S16384x2048_1_0_0_1_n_n_wf

class Facts : Prop extends Facts₀ where

variable [Facts]
-- ==== Proof.LowRankSpec.lean ====
/-
  The low-rank projection as ONE function of the three argument arrays x : [16384, 2048], win : [2048, 45] and
  wout : [45, 2048], over the extended reals: entry (r, q) of the hidden array is the sum over the 2048 input
  coordinates k of x[r, k] * win[k, q], and entry (r, c) of the result is the sum over the 45 hidden coordinates q
  of hidden[r, q] * wout[q, c]. The grouping is fixed (the inner sum first), so nothing here needs a value to be finite.
-/
import Idealize.ShloMosaic.PureOps.Ideal
import Idealize.ShloMosaic.Lib.ValueIdx

noncomputable section

open scoped BigOperators

namespace LowRank

open Idealize.ShloMosaic Idealize.ShloMosaic.ValueIdx

/-- Entry (r, q) of the hidden array x · win: row r of x against column q of win. -/
def hidden (x : (⟨2, ![16384, 2048]⟩ : Shape).Idx → EReal) (win : (⟨2, ![2048, 45]⟩ : Shape).Idx → EReal)
    (r : Fin 16384) (q : Fin 45) : EReal :=
  ∑ k : Fin 2048, x (ix2 r k) * win (ix2 k q)

/-- Entry (r, c) of the result (x · win) · wout: row r of the hidden array against column c of wout. -/
def projAt (x : (⟨2, ![16384, 2048]⟩ : Shape).Idx → EReal) (win : (⟨2, ![2048, 45]⟩ : Shape).Idx → EReal)
    (wout : (⟨2, ![45, 2048]⟩ : Shape).Idx → EReal) (r : Fin 16384) (c : Fin 2048) : EReal :=
  ∑ q : Fin 45, hidden x win r q * wout (ix2 q c)

/-- The result array, index by index. -/
def proj (x : (⟨2, ![16384, 2048]⟩ : Shape).Idx → EReal) (win : (⟨2, ![2048, 45]⟩ : Shape).Idx → EReal)
    (wout : (⟨2, ![45, 2048]⟩ : Shape).Idx → EReal) : (⟨2, ![16384, 2048]⟩ : Shape).Idx → EReal :=
  fun i => projAt x win wout (i 0) (i 1)

/-- At an index given by its two coordinates the result is the entry at those coordinates. -/
theorem proj_ix2 (x : (⟨2, ![16384, 2048]⟩ : Shape).Idx → EReal) (win : (⟨2, ![2048, 45]⟩ : Shape).Idx → EReal)
    (wout : (⟨2, ![45, 2048]⟩ : Shape).Idx → EReal) (r : Fin 16384) (c : Fin 2048) :
    proj x win wout (ix2 r c) = projAt x win wout r c := rfl

end LowRank

end
-- ==== Proof.ReferenceValue.lean ====
/-
  The reference computes the specification. Its two host products are, at an index, plain sums over the
  contracted coordinate: the first gives the hidden array, entry (r, q) the sum over k of x[r, k] * win[k, q]; the
  second gives the result, entry (r, c) the sum over q of hidden[r, q] * wout[q, c]. That is the specification,
  term for term, once the operand indices are written by their coordinates.
-/
import proofs.«116234_g24034636988908_cont_8to1_1257_14_alg».proof.Proof.Gen.ReferenceIdeal.Read
import proofs.«116234_g24034636988908_cont_8to1_1257_14_alg».proof.Proof.LowRankSpec

noncomputable section

open scoped BigOperators

namespace Cert.ReferenceIdeal.RefValue

open Cert.ReferenceIdeal Cert.ReferenceIdeal.Read Idealize.ShloMosaic Idealize.ShloMosaic.ValueIdx

/-- The reference's result, as a function of its three arguments, is the low-rank projection. -/
theorem reference_eq (x : (⟨S16384x2048, .f32⟩ : BufTy).Contents (Elt Ideal)) (win : (⟨S2048x45, .f32⟩ : BufTy).Contents (Elt Ideal))
    (wout : (⟨S45x2048, .f32⟩ : BufTy).Contents (Elt Ideal)) :
    val_main_v1 (F := Ideal) x win wout = LowRank.proj x win wout := by
  funext i
  rw [val_main_v1_apply]
  unfold LowRank.proj LowRank.projAt
  refine Finset.sum_congr rfl fun q _ => ?_
  rw [val_main_v0_apply]
  unfold LowRank.hidden
  have e1 : ∀ k : Fin 2048, lidx_main_v0 (lidx_main_v1 i q) k = ix2 (i 0) k := fun k =>
    funext fun a => Fin.ext (by match a with | ⟨0, _⟩ => rfl | ⟨1, _⟩ => rfl)
  have e2 : ∀ k : Fin 2048, ridx_main_v0 (lidx_main_v1 i q) k = ix2 k q := fun k =>
    funext fun a => Fin.ext (by match a with | ⟨0, _⟩ => rfl | ⟨1, _⟩ => rfl)
  have e3 : ridx_main_v1 i q = ix2 q (i 1) :=
    funext fun a => Fin.ext (by match a with | ⟨0, _⟩ => rfl | ⟨1, _⟩ => rfl)
  simp only [e1, e2, e3]
  rfl

end Cert.ReferenceIdeal.RefValue

end
-- ==== Proof.CaseValues.lean ====
/-
  What one run of the kernel body leaves, as values of the blocks it loaded, for any float instance.
  At the first column step of a row block the body stores the product (x block) · win into the scratch, reads it
  back, and stores (scratch) · (wout block) into the output block: the scratch ends at the first product and the
  output block at the second product of the first. At the second column step the body stores nothing into the
  scratch and the output block ends at (the scratch as the step before left it) · (wout block).
  Each store covers its whole buffer from offset zero, so the buffer reads back as the stored value.
-/
import proofs.«116234_g24034636988908_cont_8to1_1257_14_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem
open Idealize.ShloMosaic.Tactic

variable {F : FTy → Type} [FloatOps F]

/-- The offset of every load and store of the body: the origin. -/
theorem origin : (![0, 0] : Fin 2 → Nat) = fun _ => 0 := funext fun a => by fin_cases a <;> rfl

/-- First column step: the scratch ends at the product of the x block and win. -/
theorem scratch_first (c : Dev nD) (i : grid0.Coords) (arg2 : Memref sig .tc .vmem S2048x2048 .f32) (harg2 : arg2.IsWhole) (arg3 : Memref sig .tc .vmem S2048x45 .f32) (harg3 : arg3.IsWhole) (arg4 : Memref sig .tc .vmem S45x1024 .f32) (harg4 : arg4.IsWhole) (arg5 : Memref sig .tc .vmem S2048x1024 .f32) (harg5 : arg5.IsWhole) (arg6 : Memref sig .tc .vmem S2048x45 .f32) (harg6 : arg6.IsWhole) (hc0 : cond0_0 i)
    (x0 : Vec F S2048x2048 .f32) (x1 : Vec F S2048x45 .f32) (x2 : Vec F S45x1024 .f32) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero (S := S2048x45) origin]
  simp only [View.readAt_eq_ld, harg2.read_unread, harg3.read_unread, View.ld_unit_zero (S := S2048x2048) origin,
    View.ld_unit_zero (S := S2048x45) origin]

/-- First column step: the output block ends at the product of that scratch (read back whole) and the wout block. -/
theorem out_first (c : Dev nD) (i : grid0.Coords) (arg2 : Memref sig .tc .vmem S2048x2048 .f32) (harg2 : arg2.IsWhole) (arg3 : Memref sig .tc .vmem S2048x45 .f32) (harg3 : arg3.IsWhole) (arg4 : Memref sig .tc .vmem S45x1024 .f32) (harg4 : arg4.IsWhole) (arg5 : Memref sig .tc .vmem S2048x1024 .f32) (harg5 : arg5.IsWhole) (arg6 : Memref sig .tc .vmem S2048x45 .f32) (harg6 : arg6.IsWhole) (hc0 : cond0_0 i)
    (x0 : Vec F S2048x2048 .f32) (x1 : Vec F S2048x45 .f32) (x2 : Vec F S45x1024 .f32) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S2048x1024) origin, View.readCov_unit_zero (S := S2048x45) _ origin]
  simp only [View.readAt_eq_ld, harg2.read_unread, harg3.read_unread, harg4.read_unread,
    View.ld_unit_zero (S := S2048x2048) origin, View.ld_unit_zero (S := S2048x45) origin,
    View.ld_unit_zero (S := S45x1024) origin]

/-- Second column step: the output block ends at the product of the scratch it found (xs0) and the wout block. -/
theorem out_second (c : Dev nD) (i : grid0.Coords) (arg2 : Memref sig .tc .vmem S2048x2048 .f32) (harg2 : arg2.IsWhole) (arg3 : Memref sig .tc .vmem S2048x45 .f32) (harg3 : arg3.IsWhole) (arg4 : Memref sig .tc .vmem S45x1024 .f32) (harg4 : arg4.IsWhole) (arg5 : Memref sig .tc .vmem S2048x1024 .f32) (harg5 : arg5.IsWhole) (arg6 : Memref sig .tc .vmem S2048x45 .f32) (harg6 : arg6.IsWhole) (hc0 : ¬cond0_0 i)
    (x0 : Vec F S2048x2048 .f32) (x1 : Vec F S2048x45 .f32) (x2 : Vec F S45x1024 .f32) (xs0 : Vec F S2048x45 .f32) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero (S := S2048x1024) origin]
  simp only [View.readAt_eq_ld, harg6.read_unread, harg4.read_unread, View.ld_unit_zero (S := S2048x45) origin,
    View.ld_unit_zero (S := S45x1024) origin]

end Cert.KernelIdeal.CaseValues

end
-- ==== Proof.BlockReads.lean ====
/-
  Where the blocks of the four windows sit in their arrays. The grid is 8 row blocks by 2 column steps, walked row
  block first: point t is row block t / 2, column step t % 2. The x window's block at t is rows
  2048 * (t / 2) .. + 2048 of x (all 2048 columns); the win window's block is all of win; the wout window's block is
  columns 1024 * (t % 2) .. + 1024 of wout (all 45 rows); the output window's block is those rows and those columns of
  the result. An element of a block sits in its array, on each axis, at block index * block size + its own coordinate.
-/
import proofs.«116234_g24034636988908_cont_8to1_1257_14_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four windows' block indices at every grid point, decided over the 16 points. -/
theorem block_index : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, _)

/-- Entry (p, k) of the x block at point t is entry (r, k) of x, r = 2048 * (t / 2) + p. -/
theorem x_block (c : Dev nD) (t : Fin cfg0.N) (p : Fin 2048) (k : Fin 2048) (r : Fin 16384)
    (hr : r.val = 2048 * (t.val / 2) + p.val) :
    (iblk m c 0 t : Vec F S2048x2048 .f32) (ix2 p k) = V m c main_arg0 (ix2 r k) := by
  obtain ⟨e0, e1, -⟩ := block_index t
  unfold iblk
  rw [View.read_apply]
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 2048 + 1 * k.val = k.val; omega

/-- Entry (k, q) of the win block at any point is entry (k, q) of win. -/
theorem win_block (c : Dev nD) (t : Fin cfg0.N) (k : Fin 2048) (q : Fin 45) :
    (iblk m c 1 t : Vec F S2048x45 .f32) (ix2 k q) = V m c main_arg1 (ix2 k q) := by
  obtain ⟨-, -, e0, e1, -⟩ := block_index t
  unfold iblk
  rw [View.read_apply]
  show V m c main_arg1 (((cfg0.win 1).blk t).view.emb (ix2 k q)) = V m c main_arg1 (ix2 k q)
  refine congrArg (V m c main_arg1) (funext fun a => Fin.ext ?_)
  match a with
  | ⟨0, _⟩ => show win0_1.index t (0 : Fin 2) * 2048 + 1 * k.val = k.val; omega
  | ⟨1, _⟩ => show win0_1.index t (1 : Fin 2) * 45 + 1 * q.val = q.val; omega

/-- Entry (q, d) of the wout block at point t is entry (q, col) of wout, col = 1024 * (t % 2) + d. -/
theorem wout_block (c : Dev nD) (t : Fin cfg0.N) (q : Fin 45) (d : Fin 1024) (col : Fin 2048)
    (hcol : col.val = 1024 * (t.val % 2) + d.val) :
    (iblk m c 2 t : Vec F S45x1024 .f32) (ix2 q d) = V m c main_arg2 (ix2 q col) := by
  obtain ⟨-, -, -, -, e0, e1, -⟩ := block_index t
  unfold iblk
  rw [View.read_apply]
  show V m c main_arg2 (((cfg0.win 2).blk t).view.emb (ix2 q d)) = V m c main_arg2 (ix2 q col)
  refine congrArg (V m c main_arg2) (funext fun a => Fin.ext ?_)
  match a with
  | ⟨0, _⟩ => show win0_2.index t (0 : Fin 2) * 45 + 1 * q.val = q.val; omega
  | ⟨1, _⟩ => show win0_2.index t (1 : Fin 2) * 1024 + 1 * d.val = col.val; omega

end Cert.KernelIdeal.Blocks

end
-- ==== Proof.Payloads.lean ====
/-
  The two matrix products of the kernel body, read at one index over the extended reals. The first (stored into the
  scratch at the first column step) is, at (p, q), the sum over k < 2048 of the x block's entry (p, k) times the
  win block's entry (k, q); the second (stored into the output block at every step) is, at (p, c), the sum over
  q < 45 of the scratch's entry (p, q) times the wout block's entry (q, c). Both accumulate into a zero block, and
  0 + s = s.
-/
import proofs.«116234_g24034636988908_cont_8to1_1257_14_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The operand indices of the two products, coordinate by coordinate

Both products contract the left operand's axis 1 with the right operand's axis 0 and have no batch axis: at output
index i and contraction coordinate k the left operand is read at (i 0, k) and the right one at (k, i 1). -/

theorem lhs1_0 (i : S2048x45.Idx) (q : dot_S2048x2048_S2048x45_S2048x45_1_0_0_1_n_n.contr.Idx) :
    (dot_S2048x2048_S2048x45_S2048x45_1_0_0_1_n_n.lhsIdx i q 0).val = (i 0).val := by
  unfold DotDims.lhsIdx
  rw [dif_neg (show ¬(0 : Fin S2048x2048.rank) ∈ dot_S2048x2048_S2048x45_S2048x45_1_0_0_1_n_n.lhsBatch by decide), dif_pos (show (0 : Fin S2048x2048.rank) ∈ dot_S2048x2048_S2048x45_S2048x45_1_0_0_1_n_n.lhsNonContracting by decide)]
  rfl
theorem lhs1_1 (i : S2048x45.Idx) (q : dot_S2048x2048_S2048x45_S2048x45_1_0_0_1_n_n.contr.Idx) :
    (dot_S2048x2048_S2048x45_S2048x45_1_0_0_1_n_n.lhsIdx i q 1).val = (q ⟨0, by decide⟩).val :=
  dot_S2048x2048_S2048x45_S2048x45_1_0_0_1_n_n.lhsIdx_val_of_single rfl i q
theorem rhs1_0 (i : S2048x45.Idx) (q : dot_S2048x2048_S2048x45_S2048x45_1_0_0_1_n_n.contr.Idx) :
    (dot_S2048x2048_S2048x45_S2048x45_1_0_0_1_n_n.rhsIdx i q 0).val = (q ⟨0, by decide⟩).val :=
  dot_S2048x2048_S2048x45_S2048x45_1_0_0_1_n_n.rhsIdx_val_of_single rfl i q
theorem rhs1_1 (i : S2048x45.Idx) (q : dot_S2048x2048_S2048x45_S2048x45_1_0_0_1_n_n.contr.Idx) :
    (dot_S2048x2048_S2048x45_S2048x45_1_0_0_1_n_n.rhsIdx i q 1).val = (i 1).val := by
  unfold DotDims.rhsIdx
  rw [dif_neg (show ¬(1 : Fin S2048x45.rank) ∈ dot_S2048x2048_S2048x45_S2048x45_1_0_0_1_n_n.rhsBatch by decide), dif_pos (show (1 : Fin S2048x45.rank) ∈ dot_S2048x2048_S2048x45_S2048x45_1_0_0_1_n_n.rhsNonContracting by decide)]
  rfl

theorem lhs2_0 (i : S2048x1024.Idx) (q : dot_S2048x45_S45x1024_S2048x1024_1_0_0_1_n_n.contr.Idx) :
    (dot_S2048x45_S45x1024_S2048x1024_1_0_0_1_n_n.lhsIdx i q 0).val = (i 0).val := by
  unfold DotDims.lhsIdx
  rw [dif_neg (show ¬(0 : Fin S2048x45.rank) ∈ dot_S2048x45_S45x1024_S2048x1024_1_0_0_1_n_n.lhsBatch by decide), dif_pos (show (0 : Fin S2048x45.rank) ∈ dot_S2048x45_S45x1024_S2048x1024_1_0_0_1_n_n.lhsNonContracting by decide)]
  rfl
theorem lhs2_1 (i : S2048x1024.Idx) (q : dot_S2048x45_S45x1024_S2048x1024_1_0_0_1_n_n.contr.Idx) :
    (dot_S2048x45_S45x1024_S2048x1024_1_0_0_1_n_n.lhsIdx i q 1).val = (q ⟨0, by decide⟩).val :=
  dot_S2048x45_S45x1024_S2048x1024_1_0_0_1_n_n.lhsIdx_val_of_single rfl i q
theorem rhs2_0 (i : S2048x1024.Idx) (q : dot_S2048x45_S45x1024_S2048x1024_1_0_0_1_n_n.contr.Idx) :
    (dot_S2048x45_S45x1024_S2048x1024_1_0_0_1_n_n.rhsIdx i q 0).val = (q ⟨0, by decide⟩).val :=
  dot_S2048x45_S45x1024_S2048x1024_1_0_0_1_n_n.rhsIdx_val_of_single rfl i q
theorem rhs2_1 (i : S2048x1024.Idx) (q : dot_S2048x45_S45x1024_S2048x1024_1_0_0_1_n_n.contr.Idx) :
    (dot_S2048x45_S45x1024_S2048x1024_1_0_0_1_n_n.rhsIdx i q 1).val = (i 1).val := by
  unfold DotDims.rhsIdx
  rw [dif_neg (show ¬(1 : Fin S45x1024.rank) ∈ dot_S2048x45_S45x1024_S2048x1024_1_0_0_1_n_n.rhsBatch by decide), dif_pos (show (1 : Fin S45x1024.rank) ∈ dot_S2048x45_S45x1024_S2048x1024_1_0_0_1_n_n.rhsNonContracting by decide)]
  rfl

/-! ## The products at an index -/

/-- What the first column step stores into the scratch, at (p, q): row p of the x block against column q of win. -/
theorem scratch_apply (xb : Vec Ideal S2048x2048 .f32) (wi : Vec Ideal S2048x45 .f32) (p : Fin 2048) (q : Fin 45) :
    k0_pay1 (F := Ideal) xb wi (ix2 p q) = ∑ k : Fin 2048, xb (ix2 p k) * wi (ix2 k q) := by
  unfold k0_pay1
  refine (congrFun (shapeCast_self _ _) (ix2 p q)).trans ?_
  refine (Ideal.matmul_constant_zero_apply dot_S2048x2048_S2048x45_S2048x45_1_0_0_1_n_n none xb wi (ix2 p q)).trans ?_
  rw [← Equiv.sum_comp (contrEquiv1 dot_S2048x2048_S2048x45_S2048x45_1_0_0_1_n_n 2048 rfl rfl).symm]
  refine Finset.sum_congr rfl fun k _ => ?_
  have hk := contrEquiv1_symm_val dot_S2048x2048_S2048x45_S2048x45_1_0_0_1_n_n 2048 rfl rfl k
  have el : dot_S2048x2048_S2048x45_S2048x45_1_0_0_1_n_n.lhsIdx (ix2 p q) ((contrEquiv1 dot_S2048x2048_S2048x45_S2048x45_1_0_0_1_n_n 2048 rfl rfl).symm k) = ix2 p k := funext fun a => Fin.ext (by
    match a with
    | ⟨0, _⟩ => exact lhs1_0 _ _
    | ⟨1, _⟩ => exact (lhs1_1 _ _).trans hk)
  have er : dot_S2048x2048_S2048x45_S2048x45_1_0_0_1_n_n.rhsIdx (ix2 p q) ((contrEquiv1 dot_S2048x2048_S2048x45_S2048x45_1_0_0_1_n_n 2048 rfl rfl).symm k) = ix2 k q := funext fun a => Fin.ext (by
    match a with
    | ⟨0, _⟩ => exact (rhs1_0 _ _).trans hk
    | ⟨1, _⟩ => exact rhs1_1 _ _)
  rw [el, er]

/-- What every step stores into the output block, at (p, c): row p of the scratch against column c of the wout block. -/
theorem outblock_apply (h : Vec Ideal S2048x45 .f32) (wo : Vec Ideal S45x1024 .f32) (p : Fin 2048) (c : Fin 1024) :
    k0_pay2 (F := Ideal) h wo (ix2 p c) = ∑ q : Fin 45, h (ix2 p q) * wo (ix2 q c) := by
  unfold k0_pay2
  refine (Ideal.matmul_constant_zero_apply dot_S2048x45_S45x1024_S2048x1024_1_0_0_1_n_n none h wo (ix2 p c)).trans ?_
  rw [← Equiv.sum_comp (contrEquiv1 dot_S2048x45_S45x1024_S2048x1024_1_0_0_1_n_n 45 rfl rfl).symm]
  refine Finset.sum_congr rfl fun q _ => ?_
  have hk := contrEquiv1_symm_val dot_S2048x45_S45x1024_S2048x1024_1_0_0_1_n_n 45 rfl rfl q
  have el : dot_S2048x45_S45x1024_S2048x1024_1_0_0_1_n_n.lhsIdx (ix2 p c) ((contrEquiv1 dot_S2048x45_S45x1024_S2048x1024_1_0_0_1_n_n 45 rfl rfl).symm q) = ix2 p q := funext fun a => Fin.ext (by
    match a with
    | ⟨0, _⟩ => exact lhs2_0 _ _
    | ⟨1, _⟩ => exact (lhs2_1 _ _).trans hk)
  have er : dot_S2048x45_S45x1024_S2048x1024_1_0_0_1_n_n.rhsIdx (ix2 p c) ((contrEquiv1 dot_S2048x45_S45x1024_S2048x1024_1_0_0_1_n_n 45 rfl rfl).symm q) = ix2 q c := funext fun a => Fin.ext (by
    match a with
    | ⟨0, _⟩ => exact (rhs2_0 _ _).trans hk
    | ⟨1, _⟩ => exact rhs2_1 _ _)
  rw [el, er]

end Cert.KernelIdeal.Payload

end
-- ==== Proof.PointValues.lean ====
/-
  What the scratch and the output block hold after each grid point, over the extended reals, in terms of the
  specification. Point t is row block t / 2, column step t % 2. After ANY point t the scratch holds rows
  2048 * (t / 2) .. + 2048 of the hidden array x · win: at an even point the body has just stored them; at an odd
  point the body stores nothing into the scratch, which still holds what the even point before (same row block) left.
  So after any point t the output block holds, at (p, d), the specification's entry at row 2048 * (t / 2) + p and
  column 1024 * (t % 2) + d: the product of those hidden rows with columns 1024 * (t % 2) .. + 1024 of wout.
-/
import proofs.«116234_g24034636988908_cont_8to1_1257_14_alg».proof.Proof.CaseValues
import proofs.«116234_g24034636988908_cont_8to1_1257_14_alg».proof.Proof.BlockReads
import proofs.«116234_g24034636988908_cont_8to1_1257_14_alg».proof.Proof.Payloads
import proofs.«116234_g24034636988908_cont_8to1_1257_14_alg».proof.Proof.LowRankSpec

noncomputable section

open scoped BigOperators

namespace Cert.KernelIdeal.Points

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first product of the blocks at point t, at (p, q), is the hidden array's entry at row r = 2048 * (t / 2) + p. -/
theorem first_product (c : Dev nD) (t : Fin cfg0.N) (p : Fin 2048) (q : Fin 45) (r : Fin 16384)
    (hr : r.val = 2048 * (t.val / 2) + p.val) :
    k0_pay1 (F := Ideal) (iblk m c 0 t) (iblk m c 1 t) (ix2 p q) = LowRank.hidden (V m c main_arg0) (V m c main_arg1) r q := by
  refine (Payload.scratch_apply (iblk m c 0 t) (iblk m c 1 t) p q).trans ?_
  unfold LowRank.hidden
  refine Finset.sum_congr rfl fun k _ => ?_
  rw [Blocks.x_block m c t p k r hr, Blocks.win_block m c t k q]

/-- After an even point the scratch holds the hidden rows of that point's row block: the body has just stored them. -/
theorem scratch_even (c : Dev nD) (n : ℕ) (h : n < cfg0.N) (h0 : n % 2 = 0) (p : Fin 2048) (q : Fin 45) (r : Fin 16384)
    (hr : r.val = 2048 * (n / 2) + p.val) :
    (outsAt0 m c n h).2 (ix2 p q) = LowRank.hidden (V m c main_arg0) (V m c main_arg1) r q := by
  rw [outsAt0_A m c ⟨n, h⟩ h0]
  dsimp only
  refine (congrFun (CaseValues.scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0)
    (iblk m c 0 ⟨n, h⟩) (iblk m c 1 ⟨n, h⟩) (iblk m c 2 ⟨n, h⟩)) (ix2 p q)).trans ?_
  exact first_product m c ⟨n, h⟩ p q r hr

/-- After any point the scratch holds the hidden rows of that point's row block: an odd point leaves what the even
    point before it (the same row block) stored. -/
theorem scratch_after (c : Dev nD) (n : ℕ) (h : n < cfg0.N) (p : Fin 2048) (q : Fin 45) (r : Fin 16384)
    (hr : r.val = 2048 * (n / 2) + p.val) :
    (outsAt0 m c n h).2 (ix2 p q) = LowRank.hidden (V m c main_arg0) (V m c main_arg1) r q := by
  by_cases h0 : n % 2 = 0
  · exact scratch_even m c n h h0 p q r hr
  · rw [outsAt0_B m c ⟨n, h⟩ h0]
    dsimp only
    unfold sout0_B_0
    exact scratch_even m c (n - 1) _ (by omega) p q r (by omega)

/-- The second product of a scratch holding the hidden rows of row block t / 2 with the wout block at point t is,
    at (p, d), the specification's entry at row 2048 * (t / 2) + p, column 1024 * (t % 2) + d. -/
theorem second_product (c : Dev nD) (t : Fin cfg0.N) (p : Fin 2048) (d : Fin 1024) (r : Fin 16384) (col : Fin 2048)
    (hcol : col.val = 1024 * (t.val % 2) + d.val) (hs : Vec Ideal S2048x45 .f32)
    (hh : ∀ q : Fin 45, hs (ix2 p q) = LowRank.hidden (V m c main_arg0) (V m c main_arg1) r q) :
    k0_pay2 (F := Ideal) hs (iblk m c 2 t) (ix2 p d)
      = LowRank.projAt (V m c main_arg0) (V m c main_arg1) (V m c main_arg2) r col := by
  refine (Payload.outblock_apply hs (iblk m c 2 t) p d).trans ?_
  unfold LowRank.projAt
  refine Finset.sum_congr rfl fun q _ => ?_
  rw [hh q, Blocks.wout_block m c t q d col hcol]

/-- After any point t the output block holds, at (p, d), the specification's entry at row 2048 * (t / 2) + p and
    column 1024 * (t % 2) + d. -/
theorem out_after (c : Dev nD) (t : Fin cfg0.N) (p : Fin 2048) (d : Fin 1024) (r : Fin 16384) (col : Fin 2048)
    (hr : r.val = 2048 * (t.val / 2) + p.val) (hcol : col.val = 1024 * (t.val % 2) + d.val) :
    (outsAt0 m c t.val t.isLt).1 (ix2 p d)
      = LowRank.projAt (V m c main_arg0) (V m c main_arg1) (V m c main_arg2) r col := by
  by_cases h0 : t.val % 2 = 0
  · rw [outsAt0_A m c t h0]
    dsimp only
    refine (congrFun (CaseValues.out_first c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t)) (ix2 p d)).trans ?_
    exact second_product m c t p d r col hcol _ fun q => first_product m c t p q r hr
  · rw [outsAt0_B m c t h0]
    dsimp only
    refine (congrFun (CaseValues.out_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t)
      (outsAt0 m c (t.val - 1) (Nat.lt_of_le_of_lt (Nat.sub_le _ _) t.isLt)).2) (ix2 p d)).trans ?_
    exact second_product m c t p d r col hcol _ fun q =>
      scratch_even m c (t.val - 1) _ (by omega) p q r (by omega)

end Cert.KernelIdeal.Points

end
-- ==== Proof.KernelResult.lean ====
/-
  The kernel's result array, over the extended reals, is the specification of its three argument arrays.
  Every grid point writes its output block back; block t is rows 2048 * (t / 2) .. + 2048 and columns
  1024 * (t % 2) .. + 1024 of the result, and what point t writes there is the specification read through that
  block. The 16 blocks tile the 16384 x 2048 array: index (r, c) lies in the block of point 2 * (r / 2048) + c / 1024.
  So after the run the array holds the specification everywhere.
-/
import proofs.«116234_g24034636988908_cont_8to1_1257_14_alg».proof.Proof.PointValues
import proofs.«116234_g24034636988908_cont_8to1_1257_14_alg».proof.Proof.Gen.KernelIdeal.Value

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The specification of the argument arrays as the kernel finds them, as contents of the result array. -/
abbrev spec (c : Dev nD) : Buf (Elt Ideal) ((c : Thread nD τ).loc main_v0) :=
  LowRank.proj (V m c main_arg0) (V m c main_arg1) (V m c main_arg2)

/-- What point t writes back is the specification read through the output window's block at t. -/
theorem written_back (c : Dev nD) (t : Fin cfg0.N) :
    (dats m 0 c).flushed 3 t = ((cfg0.win 3).blk t).view.read (Elt Ideal) (spec m c) := by
  obtain ⟨-, -, -, -, -, -, e0, e1⟩ := Blocks.block_index t
  rw [Value.flushed3]
  funext j
  obtain ⟨p, d, rfl⟩ : ∃ (p : Fin 2048) (d : Fin 1024), j = ix2 p d := ⟨j 0, j 1, eq_ix2 j⟩
  rw [View.read_apply]
  show (outsAt0 m c t.val t.isLt).1 (ix2 p d)
    = LowRank.projAt (V m c main_arg0) (V m c main_arg1) (V m c main_arg2)
        ((((cfg0.win 3).blk t).view.emb (ix2 p d)) 0) ((((cfg0.win 3).blk t).view.emb (ix2 p d)) 1)
  refine Points.out_after m c t p d _ _ ?_ ?_
  · show win0_3.index t (0 : Fin 2) * 2048 + 1 * p.val = 2048 * (t.val / 2) + p.val
    omega
  · show win0_3.index t (1 : Fin 2) * 1024 + 1 * d.val = 1024 * (t.val % 2) + d.val
    omega

/-- An index of the array is in point t's output block iff each coordinate is in the block's range on its axis. -/
theorem mem_block (t : Fin cfg0.N) (i : S16384x2048.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v0).slice (win0_3.rect t)).set ↔ _
  rw [View.set_slice_whole, Rect.mem_set_unit]
  exact Iff.rfl

/-- Every index (r, c) of the result is in the output block of the point 2 * (r / 2048) + c / 1024. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 16 := N_0
  obtain ⟨t, ht⟩ : ∃ t : Fin cfg0.N, t.val = 2 * ((i 0).val / 2048) + (i 1).val / 1024 :=
    ⟨⟨2 * ((i 0).val / 2048) + (i 1).val / 1024, by omega⟩, rfl⟩
  obtain ⟨-, -, -, -, -, -, e0, e1⟩ := Blocks.block_index t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

/-- After the run the result array holds the specification. -/
theorem final (c : Dev nD) : (dats m 0 c).arrAt 3 cfg0.N = spec m c :=
  (dats m 0 c).arrAt_eq_of_cover 3 (spec m c) (fun t _ => written_back m c t) covered

/-- The run, read: the result array at the specification of the arguments' launch contents, the arguments unchanged. -/
theorem run : θ_run defs (onTc (τ := τ) (main (F := Ideal))) ⟨m, fun _ => 0, ρ⟩ fun r => ∀ c : Dev nD,
      r.2.mem ((c : Thread nD τ).loc main_v0)
        = LowRank.proj (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  The kernel computes out = (x · win) · wout for x : [16384, 2048], win : [2048, 45], wout : [45, 2048] in one fused
  call over a grid of 8 row blocks by 2 column steps: at the first column step of a row block it stores the rank-45
  product (x block) · win into a scratch buffer, and at both column steps it stores (scratch) · (wout block) into the
  output block. The reference is the two products one after the other. Over the extended reals both are the same
  function of the arguments, with the same grouping (the inner sum over the 2048 input coordinates first, then the sum
  over the 45 hidden coordinates), so the claim holds for all inputs and the finiteness precondition is never used.

  The pieces: LowRankSpec (the function), ReferenceValue (the reference is it), Payloads (the body's two products at
  an index), CaseValues (what one run of the body leaves), BlockReads (where the blocks sit), PointValues (the scratch
  and the output block after every grid point), KernelResult (the result array is the function). The three frames are
  the generated ones; the idealization rewrote nothing, so preserves is trivial.
-/
import proofs.«116234_g24034636988908_cont_8to1_1257_14_alg».proof.Defs
import proofs.«116234_g24034636988908_cont_8to1_1257_14_alg».proof.Proof.Gen.Kernel
import proofs.«116234_g24034636988908_cont_8to1_1257_14_alg».proof.Proof.Gen.Kernel.Skeleton
import proofs.«116234_g24034636988908_cont_8to1_1257_14_alg».proof.Proof.Gen.Kernel.Launch
import proofs.«116234_g24034636988908_cont_8to1_1257_14_alg».proof.Proof.Gen.Kernel.Points
import proofs.«116234_g24034636988908_cont_8to1_1257_14_alg».proof.Proof.Gen.Kernel.Frame
import proofs.«116234_g24034636988908_cont_8to1_1257_14_alg».proof.Proof.Gen.KernelIdeal
import proofs.«116234_g24034636988908_cont_8to1_1257_14_alg».proof.Proof.Gen.KernelIdeal.Skeleton
import proofs.«116234_g24034636988908_cont_8to1_1257_14_alg».proof.Proof.Gen.KernelIdeal.Launch
import proofs.«116234_g24034636988908_cont_8to1_1257_14_alg».proof.Proof.Gen.KernelIdeal.Points
import proofs.«116234_g24034636988908_cont_8to1_1257_14_alg».proof.Proof.Gen.KernelIdeal.Frame
import proofs.«116234_g24034636988908_cont_8to1_1257_14_alg».proof.Proof.Gen.ReferenceIdeal
import proofs.«116234_g24034636988908_cont_8to1_1257_14_alg».proof.Proof.Gen.KernelIdeal.Value
import proofs.«116234_g24034636988908_cont_8to1_1257_14_alg».proof.Proof.Gen.ReferenceIdeal.Run
import proofs.«116234_g24034636988908_cont_8to1_1257_14_alg».proof.Proof.Gen.ReferenceIdeal.Read
import proofs.«116234_g24034636988908_cont_8to1_1257_14_alg».proof.Proof.ReferenceValue
import proofs.«116234_g24034636988908_cont_8to1_1257_14_alg».proof.Proof.KernelResult
import proofs.«116234_g24034636988908_cont_8to1_1257_14_alg».proof.Proof.Gen.Pre_finite_inputs
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the low-rank projection of its arguments, and the
    reference's at the same function of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
